-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S64x256 .f32) (main_arg3 : FVec F S64 .f32) (main_arg4 : FVec F S64 .f32) (main_arg5 : FVec F S64 .f32) (main_arg6 : FVec F S64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S100000x64 : Shape := ⟨2, ![100000, 64]⟩
abbrev S10000x256 : Shape := ⟨2, ![10000, 256]⟩
abbrev S10000x64 : Shape := ⟨2, ![10000, 64]⟩
abbrev S256x64 : Shape := ⟨2, ![256, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 72
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S64x256, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S100000x64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S64x256, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x256_S256x64_S10000x64_1_0_0_1_n_n_wf : DotDims.WF S10000x256 S256x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S64x256 : Shape := ⟨2, ![64, 256]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x64 : Shape := ⟨2, ![256, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S64x256, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S256x64, .f32⟩
  | .hbm, ⟨50, _⟩ => ⟨S100000x64, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_cst : Ref sig .tc := ⟨.hbm, 86, rfl⟩
abbrev main_call1_v0 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S64x256_S256x64_1_0 : S64x256.Transposes [1, 0] S256x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x64_S100000x64_1_0_0_1_n_n_wf : DotDims.WF S100000x256 S256x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named.

  @main is five segments: the linear-transform region, three stretches of host operations (the neighbourhood
  sum), and the normalisation region. The buffer contents at each boundary are a fold from the launch memory:
  a host stretch applies its operations, a region replaces its windows' arrays by what its write-backs leave.
  The last boundary's contents are `W5`. Every weakly fair execution terminates, nothing faulting, in a state
  whose unscoped buffers hold exactly `W5`; read at the result buffer that is the result, and read at an
  argument it is the launch contents, since no segment writes an argument.
-/
import proofs.«106721_j21045339751032_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer then holds the last
    boundary's contents there, and each argument buffer what it was launched with. -/
theorem run_out : θ_run defs (onTc (τ := τ) (main (F := F))) ⟨m, fun _ => 0, ρ⟩ (fun r => ∀ c : Dev nD,
      r.2.mem ((c.tc : Thread nD τ).loc main_v50) = W5 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    -- @main is the run of its segments
    (fun c Q => by rw [main_run m ρ c])
    -- each pipeline is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no further ghost resource per core
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state between segments: every unscoped buffer at the boundary's contents
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    -- the first thread state, from what the launch deals each core
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last thread state read against a final state: every unscoped buffer holds `W5`
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    -- the result at the last contents; each argument walked back to the launch
    (hQ := fun s h c =>
      ⟨h c _ (mem_uc main_v50 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Out

end
-- ==== Proof.Spec.lean ====
/-
  The two dense stages of the layer as whole-array functions on the extended reals.

  * `xwOf x W` is the linear transform: entry (r, j) is the sum over the 256 input features k of x[r, k] · W[j, k]
    (the weight matrix is used transposed, so row j of W is read along its columns).
  * `bnRelu agg b μ v γ β` is the bias, the batch normalisation with fixed statistics and the rectifier, entry by
    entry: max((((agg[r, j] + b[j]) − μ[j]) · (v[j] + ε)^(−1/2)) · γ[j] + β[j], 0), with ε the one single-precision
    word both programs carry and the operations taken in exactly this order. Column j of every per-feature vector is
    shared by all rows.

  Between the two stands the normalised neighbourhood sum, which both programs compute by the same host operations
  of the transformed features and of the edge list; it is named where those operations are in scope.
-/
import Idealize.ShloMosaic.PureOps.Ideal
import Idealize.ShloMosaic.Lib.ValueIdx

noncomputable section

namespace Cert.Gcn

open Idealize.ShloMosaic Idealize.ShloMosaic.ValueIdx

/-- Node features, weights, transformed features and per-feature vectors, by their literal extents. -/
abbrev SX : Shape := ⟨2, ![100000, 256]⟩
abbrev SW : Shape := ⟨2, ![64, 256]⟩
abbrev SY : Shape := ⟨2, ![100000, 64]⟩
abbrev SP : Shape := ⟨1, ![64]⟩

/-- The linear transform: (x · Wᵀ)[r, j] = ∑ₖ x[r, k] · W[j, k]. -/
def xwOf (x : FVec Ideal SX .f32) (W : FVec Ideal SW .f32) : FVec Ideal SY .f32 :=
  fun i => ∑ k : Fin 256, x (ix2 (i 0) k) * W (ix2 (i 1) k)

/-- Bias, normalisation by the fixed statistics, scale, shift and rectifier, at entry (r, j), in the order both
    programs apply them. -/
def bnRelu (agg : FVec Ideal SY .f32) (b μ v γ β : FVec Ideal SP .f32) : FVec Ideal SY .f32 :=
  fun i => max ((((agg i + b (ix1 (i 1))) - μ (ix1 (i 1)))
      * Ideal.rsqrt (v (ix1 (i 1)) + Ideal.ofBits .f32 0x3727C5AC#32)) * γ (ix1 (i 1)) + β (ix1 (i 1)))
    (Ideal.ofBits .f32 0x00000000#32)

end Cert.Gcn

end
-- ==== Proof.Linear.lean ====
/-
  The linear-transform region: the array it leaves is `xwOf` of the node features and the weights as it finds them.

  The region walks the 100,000 rows in ten blocks of 10,000. At block t its body loads rows 10000·t … 10000·t + 9999
  of the features and the whole weight matrix, and stores their matrix product with the weights transposed: entry
  (p, q) of the stored block is the sum over k of features[p, k] · weights[q, k] — into a zero accumulator, the
  narrowing to half precision being the identity on extended reals. Row p of block t is row 10000·t + p of the array,
  so the block is the corresponding block of `xwOf`; the ten blocks tile the array, hence the array ends at `xwOf`.
-/
import proofs.«106721_j21045339751032_1_alg».proof.Proof.Gen.KernelIdeal.Frame
import proofs.«106721_j21045339751032_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-- The body's product: block rows by features, times features by output columns. -/
abbrev dotK : DotDims S10000x256 S256x64 S10000x64 := dot_S10000x256_S256x64_S10000x64_1_0_0_1_n_n

/-! ## The product's operand indices -/

theorem lhs0 (i : S10000x64.Idx) (q : dotK.contr.Idx) : (dotK.lhsIdx i q 0).val = (i 0).val := by
  unfold DotDims.lhsIdx
  rw [dif_neg (show ¬(0 : Fin S10000x256.rank) ∈ dotK.lhsBatch by decide), dif_pos (show (0 : Fin S10000x256.rank) ∈ dotK.lhsNonContracting by decide)]
  rfl
theorem lhs1 (i : S10000x64.Idx) (q : dotK.contr.Idx) : (dotK.lhsIdx i q 1).val = (q ⟨0, by decide⟩).val :=
  dotK.lhsIdx_val_of_single rfl i q
theorem rhs0 (i : S10000x64.Idx) (q : dotK.contr.Idx) : (dotK.rhsIdx i q 0).val = (q ⟨0, by decide⟩).val :=
  dotK.rhsIdx_val_of_single rfl i q
theorem rhs1 (i : S10000x64.Idx) (q : dotK.contr.Idx) : (dotK.rhsIdx i q 1).val = (i 1).val := by
  unfold DotDims.rhsIdx
  rw [dif_neg (show ¬(1 : Fin S256x64.rank) ∈ dotK.rhsBatch by decide), dif_pos (show (1 : Fin S256x64.rank) ∈ dotK.rhsNonContracting by decide)]
  rfl

/-- Entry (row of y, k) of a feature block; entry (column of y, k) of the weights; entry (k, column of y) of their transpose. -/
abbrev featAt (y : S10000x64.Idx) (k : Fin 256) : S10000x256.Idx := fun a => match a with
  | ⟨0, _⟩ => ⟨(y 0).val, (y 0).isLt⟩
  | ⟨1, _⟩ => ⟨k.val, k.isLt⟩
abbrev wgtAt (y : S10000x64.Idx) (k : Fin 256) : S64x256.Idx := fun a => match a with
  | ⟨0, _⟩ => ⟨(y 1).val, (y 1).isLt⟩
  | ⟨1, _⟩ => ⟨k.val, k.isLt⟩
abbrev wgtTAt (y : S10000x64.Idx) (k : Fin 256) : S256x64.Idx := fun a => match a with
  | ⟨0, _⟩ => ⟨k.val, k.isLt⟩
  | ⟨1, _⟩ => ⟨(y 1).val, (y 1).isLt⟩

/-- The stored block at an entry: the sum over the 256 features of the feature row times the weight row. -/
theorem pay_apply (x0 : Vec Ideal S10000x256 .f32) (x1 : Vec Ideal S64x256 .f32) (y : S10000x64.Idx) :
    k0_pay1 (F := Ideal) x0 x1 y = ∑ k : Fin 256, x0 (featAt y k) * x1 (wgtAt y k) := by
  unfold k0_pay1
  refine (Ideal.matmul_constant_zero_apply dotK none _ _ y).trans ?_
  rw [← Equiv.sum_comp (contrEquiv1 dotK 256 rfl rfl).symm]
  refine Finset.sum_congr rfl fun k _ => ?_
  have hk := contrEquiv1_symm_val dotK 256 rfl rfl k
  have el : dotK.lhsIdx y ((contrEquiv1 dotK 256 rfl rfl).symm k) = featAt y k := funext fun a => Fin.ext (by
    match a with
    | ⟨0, _⟩ => exact lhs0 _ _
    | ⟨1, _⟩ => exact (lhs1 _ _).trans hk)
  have er : dotK.rhsIdx y ((contrEquiv1 dotK 256 rfl rfl).symm k) = wgtTAt y k := funext fun a => Fin.ext (by
    match a with
    | ⟨0, _⟩ => exact (rhs0 _ _).trans hk
    | ⟨1, _⟩ => exact rhs1 _ _)
  rw [el, er]
  refine congrArg (x0 (featAt y k) * ·) ?_
  exact transpose_apply [1, 0] _ transposes_S64x256_p1_0_S256x64 (wgtTAt y k) (wgtAt y k) (fun b => by
    match b with
    | ⟨0, _⟩ => rfl
    | ⟨1, _⟩ => rfl)

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the feature block and the output block are block t of their arrays
    along the rows and the only block along the columns; the weights are always their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `xwOf` of the arrays the region finds. -/
theorem flushed_eq (c : Dev nD) (t : Fin cfg0.N) :
    (dat0 V c).flushed 2 t = ((cfg0.win 2).blk t).view.read (Elt Ideal) (xwOf (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S64x256) hz]
  obtain ⟨e00, e01, e10, e11, e20, e21⟩ := idx_facts t
  funext j
  refine (pay_apply (iblk0 V c 0 t) (iblk0 V c 1 t) j).trans ?_
  show _ = xwOf (V c main_arg0) (V c main_arg2) (((cfg0.win 2).blk t).view.emb j)
  unfold xwOf
  refine Finset.sum_congr rfl fun k _ => ?_
  have h0 : ((cfg0.win 0).blk t).view.emb (featAt j k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  have h1 : ((cfg0.win 1).blk t).view.emb (wgtAt j k) = ix2 ((((cfg0.win 2).blk t).view.emb j) 1) k := by
    funext a; apply Fin.ext
    match a with
    | ⟨0, _⟩ => show win0_1.index t (0 : Fin 2) * 64 + 1 * (j 1).val = win0_2.index t (1 : Fin 2) * 64 + 1 * (j 1).val; omega
    | ⟨1, _⟩ => show win0_1.index t (1 : Fin 2) * 256 + 1 * k.val = k.val; omega
  have a0 : iblk0 V c 0 t (featAt j k) = V c main_arg0 (ix2 ((((cfg0.win 2).blk t).view.emb j) 0) k) := congrArg (V c main_arg0) h0
  have a1 : iblk0 V c 1 t (wgtAt j k) = V c main_arg2 (ix2 ((((cfg0.win 2).blk t).view.emb j) 1) k) := congrArg (V c main_arg2) h1
  rw [a0, a1]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the array lies in block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  obtain ⟨-, -, -, -, e20, e21⟩ := idx_facts t
  have e20' : win0_2.index t (0 : Fin 2) = (i 0).val / 10000 := e20
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The array the region leaves: `xwOf` of the features and weights it found. -/
theorem final (c : Dev nD) : (dat0 V c).arrAt 2 cfg0.N = xwOf (V c main_arg0) (V c main_arg2) :=
  (dat0 V c).arrAt_eq_of_cover 2 _ (fun t _ => flushed_eq V c t) cover

end Cert.KernelIdeal.Lin

end
-- ==== Proof.Norm.lean ====
/-
  The normalisation region: the array it leaves is `bnRelu` of the neighbourhood sum and the five per-feature
  vectors as it finds them.

  The region walks the 100,000 rows in ten blocks of 10,000. At block t its body loads rows 10000·t … 10000·t + 9999
  of the neighbourhood sum and the five per-feature vectors (each held as one row of 64), stretches each vector
  down the block's rows, and computes entry by entry max((((agg + b) − μ) · (v + ε)^(−1/2)) · γ + β, 0): entry (p, q)
  uses entry q of each vector. Row p of block t is row 10000·t + p of the array and columns are not split, so the
  block is the corresponding block of `bnRelu`; the ten blocks tile the array.
-/
import proofs.«106721_j21045339751032_1_alg».proof.Proof.Gen.KernelIdeal.Frame
import proofs.«106721_j21045339751032_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Nrm

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-- A per-feature vector held as one row of 64, read as the vector. -/
def unrow (p : FVec Ideal S1x64 .f32) : FVec Ideal SP .f32 := fun j => p (ix2 (0 : Fin 1) (j 0))

/-- The entry of a one-row operand that entry y of a block uses: row 0, y's column. -/
abbrev colOf (y : S10000x64.Idx) : S1x64.Idx := fun a => match a with
  | ⟨0, _⟩ => ⟨0, Nat.one_pos⟩
  | ⟨1, _⟩ => ⟨(y 1).val, (y 1).isLt⟩

/-- One row stretched down the block reads, at y, the row's entry in y's column. -/
theorem stretch_apply (v : FVec Ideal S1x64 .f32) (y : S10000x64.Idx) :
    broadcastTo S10000x64 v broadcasts_S1x64_S10000x64 y = v (colOf y) :=
  broadcastTo_apply v broadcasts_S1x64_S10000x64 y (colOf y) (fun a => by
    match a with
    | ⟨0, _⟩ => rfl
    | ⟨1, _⟩ => rfl)

/-- The stored block at an entry. -/
theorem pay_apply (x0 : Vec Ideal S10000x64 .f32) (b v μ γ β : Vec Ideal S1x64 .f32) (y : S10000x64.Idx) :
    k1_pay1 (F := Ideal) x0 b v μ γ β y
      = max ((((x0 y + b (colOf y)) - μ (colOf y)) * Ideal.rsqrt (v (colOf y) + Ideal.ofBits .f32 0x3727C5AC#32)) * γ (colOf y) + β (colOf y))
          (Ideal.ofBits .f32 0x00000000#32) := by
  unfold k1_pay1
  simp only [shapeCast_self]
  show max ((((x0 y + broadcastTo S10000x64 b broadcasts_S1x64_S10000x64 y) - broadcastTo S10000x64 μ broadcasts_S1x64_S10000x64 y)
      * broadcastTo S10000x64 (rsqrt (F := Ideal) (addf (F := Ideal) v (broadcast S1x64 (Scalar.ofBits (F := Ideal) .f32 0x3727C5AC#32)))) broadcasts_S1x64_S10000x64 y)
      * broadcastTo S10000x64 γ broadcasts_S1x64_S10000x64 y + broadcastTo S10000x64 β broadcasts_S1x64_S10000x64 y) _ = _
  rw [stretch_apply, stretch_apply, stretch_apply, stretch_apply, stretch_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the neighbourhood-sum block and the output block are block t of their
    arrays along the rows and the only block along the columns; each per-feature row is always its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 2000000 in
/-- What point t writes back is block t of `bnRelu` of the arrays the region finds. -/
theorem flushed_eq (c : Dev nD) (t : Fin cfg1.N) :
    (dat1 V c).flushed 6 t = ((cfg1.win 6).blk t).view.read (Elt Ideal)
      (bnRelu (V c main_v44) (unrow (V c main_v45)) (unrow (V c main_v46)) (unrow (V c main_v47)) (unrow (V c main_v48)) (unrow (V c main_v49))) := by
  show (cfg1.win 6).cut (grid1.coords t) ((dat1 V c).after 6 t) = _
  rw [after1_6]
  unfold out1_6
  rw [View.canon_unit_zero hz]
  simp only [View.ld_unit_zero (S := S10000x64) hz, View.ld_unit_zero (S := S1x64) hz]
  obtain ⟨e00, e01, e10, e11, e20, e21, e30, e31, e40, e41, e50, e51, e60, e61⟩ := idx_facts t
  funext j
  refine (pay_apply (iblk1 V c 0 t) (iblk1 V c 1 t) (iblk1 V c 3 t) (iblk1 V c 2 t) (iblk1 V c 4 t) (iblk1 V c 5 t) j).trans ?_
  show _ = bnRelu (V c main_v44) (unrow (V c main_v45)) (unrow (V c main_v46)) (unrow (V c main_v47)) (unrow (V c main_v48)) (unrow (V c main_v49))
    (((cfg1.win 6).blk t).view.emb j)
  unfold bnRelu unrow
  have p0 : ((cfg1.win 0).blk t).view.emb j = ((cfg1.win 6).blk t).view.emb j := by
    funext a; apply Fin.ext
    match a with
    | ⟨0, _⟩ => show win1_0.index t (0 : Fin 2) * 10000 + 1 * (j 0).val = win1_6.index t (0 : Fin 2) * 10000 + 1 * (j 0).val; omega
    | ⟨1, _⟩ => show win1_0.index t (1 : Fin 2) * 64 + 1 * (j 1).val = win1_6.index t (1 : Fin 2) * 64 + 1 * (j 1).val; omega
  have p1 : ((cfg1.win 1).blk t).view.emb (colOf j) = ix2 (0 : Fin 1) ((ix1 ((((cfg1.win 6).blk t).view.emb j) 1)) 0) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_6.index t (1 : Fin 2) * 64 + 1 * (j 1).val; omega
  have p2 : ((cfg1.win 2).blk t).view.emb (colOf j) = ix2 (0 : Fin 1) ((ix1 ((((cfg1.win 6).blk t).view.emb j) 1)) 0) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_6.index t (1 : Fin 2) * 64 + 1 * (j 1).val; omega
  have p3 : ((cfg1.win 3).blk t).view.emb (colOf j) = ix2 (0 : Fin 1) ((ix1 ((((cfg1.win 6).blk t).view.emb j) 1)) 0) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_6.index t (1 : Fin 2) * 64 + 1 * (j 1).val; omega
  have p4 : ((cfg1.win 4).blk t).view.emb (colOf j) = ix2 (0 : Fin 1) ((ix1 ((((cfg1.win 6).blk t).view.emb j) 1)) 0) := by
    funext a; apply Fin.ext
    match a with
    | ⟨0, _⟩ => show win1_4.index t (0 : Fin 2) * 1 + 1 * 0 = 0; omega
    | ⟨1, _⟩ => show win1_4.index t (1 : Fin 2) * 64 + 1 * (j 1).val = win1_6.index t (1 : Fin 2) * 64 + 1 * (j 1).val; omega
  have p5 : ((cfg1.win 5).blk t).view.emb (colOf j) = ix2 (0 : Fin 1) ((ix1 ((((cfg1.win 6).blk t).view.emb j) 1)) 0) := by
    funext a; apply Fin.ext
    match a with
    | ⟨0, _⟩ => show win1_5.index t (0 : Fin 2) * 1 + 1 * 0 = 0; omega
    | ⟨1, _⟩ => show win1_5.index t (1 : Fin 2) * 64 + 1 * (j 1).val = win1_6.index t (1 : Fin 2) * 64 + 1 * (j 1).val; omega
  have a0 : iblk1 V c 0 t j = (V c main_v44 : FVec Ideal SY .f32) (((cfg1.win 6).blk t).view.emb j) := congrArg (V c main_v44) p0
  have a1 : iblk1 V c 1 t (colOf j) = (V c main_v45 : FVec Ideal S1x64 .f32) (ix2 (0 : Fin 1) ((ix1 ((((cfg1.win 6).blk t).view.emb j) 1)) 0)) := congrArg (V c main_v45) p1
  have a2 : iblk1 V c 2 t (colOf j) = (V c main_v46 : FVec Ideal S1x64 .f32) (ix2 (0 : Fin 1) ((ix1 ((((cfg1.win 6).blk t).view.emb j) 1)) 0)) := congrArg (V c main_v46) p2
  have a3 : iblk1 V c 3 t (colOf j) = (V c main_v47 : FVec Ideal S1x64 .f32) (ix2 (0 : Fin 1) ((ix1 ((((cfg1.win 6).blk t).view.emb j) 1)) 0)) := congrArg (V c main_v47) p3
  have a4 : iblk1 V c 4 t (colOf j) = (V c main_v48 : FVec Ideal S1x64 .f32) (ix2 (0 : Fin 1) ((ix1 ((((cfg1.win 6).blk t).view.emb j) 1)) 0)) := congrArg (V c main_v48) p4
  have a5 : iblk1 V c 5 t (colOf j) = (V c main_v49 : FVec Ideal S1x64 .f32) (ix2 (0 : Fin 1) ((ix1 ((((cfg1.win 6).blk t).view.emb j) 1)) 0)) := congrArg (V c main_v49) p5
  rw [a0, a1, a2, a3, a4, a5]
  rfl

/-- An index of the array is in point t's block iff each coordinate is in the block's range on its axis. -/
theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v50).slice (win1_6.rect t)).set ↔ _
  rw [View.set_slice_whole, Rect.mem_set_unit]
  exact Iff.rfl

/-- Row r of the array lies in block r / 10000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 10 := N_1
  let t : Fin cfg1.N := ⟨(i 0).val / 10000, by show (i 0).val / 10000 < grid1.N; omega⟩
  obtain ⟨-, -, -, -, -, -, -, -, -, -, -, -, e60, e61⟩ := idx_facts t
  have e60' : win1_6.index t (0 : Fin 2) = (i 0).val / 10000 := e60
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- The array the region leaves: `bnRelu` of the neighbourhood sum and the per-feature rows it found. -/
theorem final (c : Dev nD) : (dat1 V c).arrAt 6 cfg1.N
    = bnRelu (V c main_v44) (unrow (V c main_v45)) (unrow (V c main_v46)) (unrow (V c main_v47)) (unrow (V c main_v48)) (unrow (V c main_v49)) :=
  (dat1 V c).arrAt_eq_of_cover 6 _ (fun t _ => flushed_eq V c t) cover

end Cert.KernelIdeal.Nrm

end
-- ==== Proof.Neighbourhood.lean ====
/-
  The normalised neighbourhood sum, as the host operations compute it from the transformed features `xw` and the
  edge list `e` (two rows of 1,600,000 node numbers: sources, then targets).

  Every node gets a self loop, so the source and target lists are each a row of `e` followed by 0 … 99,999. The
  degree of a node is the number of list entries that name it as a target (a scatter-add of ones), its weight
  D^(−1/2) is the reciprocal square root of the degree where the degree is positive and 0 elsewhere, an edge's
  coefficient is the product of its two endpoints' weights (and of the constant edge weight 1), and the result row of
  a node is the sum, over the edges that name it as a target, of the coefficient times the source's row of `xw`.
  A negative node number is first shifted up by the number of nodes, as array indexing does.

  Both programs spell this with the same operations; here it is one function `aggOf xw e`, so that two results
  that differ only in how `xw` was obtained are compared by comparing `xw`.
-/
import proofs.«106721_j21045339751032_1_alg».proof.KernelIdeal

noncomputable section

namespace Cert.KernelIdeal.Nbr

open Cert.KernelIdeal Idealize.ShloMosaic

variable {F : FTy → Type} [FloatOps F] [Facts₀]
open Facts₀

/-- One row of the edge list followed by every node once. -/
def withLoops (row : Fin 2 → Nat) (h : S2x1600000.Slices row S1x1600000) (e : (⟨S2x1600000, .i32⟩ : BufTy).Contents (Elt F)) :
    (⟨S1700000, .i32⟩ : BufTy).Contents (Elt F) :=
  concatenate S1700000 0 [⟨S1600000, shapeCast _ (extractStridedSlice S1x1600000 row e h) shapeCasts_S1x1600000_S1600000⟩,
    ⟨S100000, iotaInDim S100000 32 0⟩] concatenates_S1600000_S100000_S1700000_d0

/-- Source nodes, and target nodes. -/
def src (e : (⟨S2x1600000, .i32⟩ : BufTy).Contents (Elt F)) : (⟨S1700000, .i32⟩ : BufTy).Contents (Elt F) :=
  withLoops (F := F) ![0, 0] slices_S2x1600000_S1x1600000_0_0 e
def dst (e : (⟨S2x1600000, .i32⟩ : BufTy).Contents (Elt F)) : (⟨S1700000, .i32⟩ : BufTy).Contents (Elt F) :=
  withLoops (F := F) ![1, 0] slices_S2x1600000_S1x1600000_1_0 e

/-- The constant edge weight 1, one per list entry. -/
def ones : (⟨S1700000, .f32⟩ : BufTy).Contents (Elt F) :=
  broadcastInDim S1700000 ![] bcast_S_S1700000 (constant S_ .f32 0x3F800000#32)

/-- A list of node numbers as a column of one-entry index vectors. -/
def asIndices (v : (⟨S1700000, .i32⟩ : BufTy).Contents (Elt F)) : (⟨S1700000x1, .i32⟩ : BufTy).Contents (Elt F) :=
  broadcastInDim S1700000x1 ![0] bcast_S1700000_S1700000x1_0 v

/-- A negative node number counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The degree of each node: how many list entries name it as a target. -/
def deg (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32)) (asIndices (F := F) (dst (F := F) e)) (ones (F := F))

/-- D^(−1/2): the reciprocal square root of a positive degree, 0 otherwise. -/
def dinv (e : (⟨S2x1600000, .i32⟩ : BufTy).Contents (Elt F)) : (⟨S100000, .f32⟩ : BufTy).Contents (Elt F) :=
  select (cmpf (F := F) .ogt (deg (F := F) e) (broadcastInDim S100000 ![] bcast_S_S100000 (constant S_ .f32 0x00000000#32)))
    (Host.rsqrt (deg (F := F) e)) (broadcastInDim S100000 ![] bcast_S_S100000 (id (constant S_ .f32 0x00000000#32)))

/-- An edge's coefficient: its source's weight, times the edge weight 1, times its target's weight. -/
def coeff (e : (⟨S2x1600000, .i32⟩ : BufTy).Contents (Elt F)) : (⟨S1700000, .f32⟩ : BufTy).Contents (Elt F) :=
  mulf (mulf (Host.gather gather_S100000_S1700000x1_S1700000_n_0_n_n_0_1_1 (dinv (F := F) e) (asIndices (F := F) (wrap (F := F) (src (F := F) e)))) (ones (F := F)))
    (Host.gather gather_S100000_S1700000x1_S1700000_n_0_n_n_0_1_1 (dinv (F := F) e) (asIndices (F := F) (wrap (F := F) (dst (F := F) e))))

/-- The neighbourhood sum: into each target's row, the coefficient times the source's row of `xw`, summed over the edges. -/
def aggOf (xw : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32)) (asIndices (F := F) (dst (F := F) e))
    (mulf (broadcastInDim S1700000x64 ![0, 1] bcast_S1700000x1_S1700000x64_0_1
        (broadcastInDim S1700000x1 ![0] bcast_S1700000_S1700000x1_0 (coeff (F := F) e)))
      (Host.gather gather_S100000x64_S1700000x1_S1700000x64_1_0_n_n_0_1_164 xw (asIndices (F := F) (wrap (F := F) (src (F := F) e)))))

end Cert.KernelIdeal.Nbr

end
-- ==== Proof.Middle.lean ====
/-
  Between the two regions: what the second region finds, in terms of what the first one left.

  The three host stretches between the regions compute, from the transformed features the first region wrote and
  from the edge list, the normalised neighbourhood sum, and reshape each of the five per-feature vectors into one row
  of 64. No stretch writes an argument buffer, and the first region changes none but its own result, so the edge
  list and the vectors are still the launch contents. Read through `unrow`, a reshaped vector is the vector itself.
-/
import proofs.«106721_j21045339751032_1_alg».proof.Proof.Gen.KernelIdeal.Frame
import proofs.«106721_j21045339751032_1_alg».proof.Proof.Neighbourhood
import proofs.«106721_j21045339751032_1_alg».proof.Proof.Norm
import Idealize.ShloMosaic.Lib.StableHlo.Run
import Idealize.ShloMosaic.Lib.Pipeline.Value
import Idealize.ShloMosaic.Lib.ValueLayout

set_option maxRecDepth 16384

noncomputable section

namespace Cert.KernelIdeal.Mid

open Cert.KernelIdeal Cert.KernelIdeal.Gen Idealize.ShloMosaic Idealize.ShloMosaic.TcCoe Idealize.SL.Sem
open Idealize.ShloMosaic.StableHlo Idealize.ShloMosaic.ValueIdx Cert.Gcn

variable {F : FTy → Type} [FloatOps F]
variable (m : (ℓ : Loc nD τ sig) → Buf (Elt F) ℓ) (ρ : Dev nD → PrngReg)

set_option maxHeartbeats 4000000 in
/-- On entry to the second region the neighbourhood-sum buffer holds `aggOf` of the first region's result and of the
    edge list, both as the first region's exit left them. -/
theorem entry_agg (c : Dev nD) :
    W4 m ρ c (Proc.devRef .tc main_v44)
      = Nbr.aggOf (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v44) = _
  after_results_simp
  unfold Nbr.aggOf Nbr.coeff Nbr.dinv Nbr.deg Nbr.asIndices Nbr.wrap Nbr.ones Nbr.src Nbr.dst Nbr.withLoops
  rfl

set_option maxHeartbeats 4000000 in
/-- The bias row on entry to the second region is the bias vector, reshaped, as the first region's exit left it. -/
theorem entry_v45 (c : Dev nD) :
    W4 m ρ c (Proc.devRef .tc main_v45) = shapeCast S1x64 (W1 m ρ c (Proc.devRef .tc main_arg3)) shapeCasts_S64_S1x64 := by
  show StableHlo.after hostOps1_2 (StableHlo.after hostOps1_1 (StableHlo.after hostOps1 (W1 m ρ c))) (Proc.devRef .tc main_v45) = _
  after_results_simp
  rfl
set_option maxHeartbeats 4000000 in
/-- The mean row on entry to the second region is the mean vector, reshaped, as the first region's exit left it. -/
theorem entry_v46 (c : Dev nD) :
    W4 m ρ c (Proc.devRef .tc main_v46) = shapeCast S1x64 (W1 m ρ c (Proc.devRef .tc main_arg6)) shapeCasts_S64_S1x64 := by
  show StableHlo.after hostOps1_2 (StableHlo.after hostOps1_1 (StableHlo.after hostOps1 (W1 m ρ c))) (Proc.devRef .tc main_v46) = _
  after_results_simp
  rfl
set_option maxHeartbeats 4000000 in
/-- The variance row on entry to the second region is the variance vector, reshaped, as the first region's exit left it. -/
theorem entry_v47 (c : Dev nD) :
    W4 m ρ c (Proc.devRef .tc main_v47) = shapeCast S1x64 (W1 m ρ c (Proc.devRef .tc main_arg7)) shapeCasts_S64_S1x64 := by
  show StableHlo.after hostOps1_2 (StableHlo.after hostOps1_1 (StableHlo.after hostOps1 (W1 m ρ c))) (Proc.devRef .tc main_v47) = _
  after_results_simp
  rfl
set_option maxHeartbeats 4000000 in
/-- The scale row on entry to the second region is the scale vector, reshaped, as the first region's exit left it. -/
theorem entry_v48 (c : Dev nD) :
    W4 m ρ c (Proc.devRef .tc main_v48) = shapeCast S1x64 (W1 m ρ c (Proc.devRef .tc main_arg4)) shapeCasts_S64_S1x64 := by
  show StableHlo.after hostOps1_2 (StableHlo.after hostOps1_1 (StableHlo.after hostOps1 (W1 m ρ c))) (Proc.devRef .tc main_v48) = _
  after_results_simp
  rfl
set_option maxHeartbeats 4000000 in
/-- The shift row on entry to the second region is the shift vector, reshaped, as the first region's exit left it. -/
theorem entry_v49 (c : Dev nD) :
    W4 m ρ c (Proc.devRef .tc main_v49) = shapeCast S1x64 (W1 m ρ c (Proc.devRef .tc main_arg5)) shapeCasts_S64_S1x64 := by
  show StableHlo.after hostOps1_2 (StableHlo.after hostOps1_1 (StableHlo.after hostOps1 (W1 m ρ c))) (Proc.devRef .tc main_v49) = _
  after_results_simp
  rfl

/-! The first region changes no buffer but its own result: the edge list and the per-feature vectors are as launched. -/
theorem exit0_arg1 (c : Dev nD) : W1 m ρ c (Proc.devRef .tc main_arg1) = m ((c.tc : Thread nD τ).loc main_arg1) :=
  W1_of_ne m ρ c main_arg1 (by decide)
theorem exit0_arg3 (c : Dev nD) : W1 m ρ c (Proc.devRef .tc main_arg3) = m ((c.tc : Thread nD τ).loc main_arg3) :=
  W1_of_ne m ρ c main_arg3 (by decide)
theorem exit0_arg4 (c : Dev nD) : W1 m ρ c (Proc.devRef .tc main_arg4) = m ((c.tc : Thread nD τ).loc main_arg4) :=
  W1_of_ne m ρ c main_arg4 (by decide)
theorem exit0_arg5 (c : Dev nD) : W1 m ρ c (Proc.devRef .tc main_arg5) = m ((c.tc : Thread nD τ).loc main_arg5) :=
  W1_of_ne m ρ c main_arg5 (by decide)
theorem exit0_arg6 (c : Dev nD) : W1 m ρ c (Proc.devRef .tc main_arg6) = m ((c.tc : Thread nD τ).loc main_arg6) :=
  W1_of_ne m ρ c main_arg6 (by decide)
theorem exit0_arg7 (c : Dev nD) : W1 m ρ c (Proc.devRef .tc main_arg7) = m ((c.tc : Thread nD τ).loc main_arg7) :=
  W1_of_ne m ρ c main_arg7 (by decide)

/-- The first region's result buffer at its exit is what its write-backs left. -/
theorem exit0_result (c : Dev nD) : W1 m ρ c (Proc.devRef .tc main_v0) = (dat0 (V0 m ρ) c).arrAt 2 cfg0.N :=
  W1_arr m ρ c 2

/-- A vector reshaped into one row, read back through `unrow`, is the vector. -/
theorem unrow_reshape (a : FVec Ideal S64 .f32) : Nrm.unrow (shapeCast S1x64 a shapeCasts_S64_S1x64) = a :=
  funext fun j => (shapeCast_a_1a_apply a shapeCasts_S64_S1x64 (0 : Fin 1) (j 0)).trans (congrArg a (eq_ix1 j).symm)

end Cert.KernelIdeal.Mid

end
-- ==== Proof.KernelValue.lean ====
/-
  The idealized kernel's result as one function of the launch memory.

  Reading the last boundary's contents at the result buffer backwards: it is what the normalisation region leaves,
  `bnRelu` of the region's entry contents; on entry the neighbourhood-sum buffer holds `aggOf` of the first region's
  result and the edge list, and each per-feature row holds its vector; the first region's result is `xwOf` of the
  features and the weights; and the edge list, the features, the weights and the vectors are the launch contents.
  So the result is bnRelu (aggOf (xwOf x W) e) b μ v γ β of the eight argument arrays.
-/
import proofs.«106721_j21045339751032_1_alg».proof.Proof.KernelRun
import proofs.«106721_j21045339751032_1_alg».proof.Proof.Linear
import proofs.«106721_j21045339751032_1_alg».proof.Proof.Norm
import proofs.«106721_j21045339751032_1_alg».proof.Proof.Middle

set_option maxRecDepth 16384

noncomputable section

namespace Cert.KernelIdeal.Out

open Cert.KernelIdeal Cert.KernelIdeal.Gen Idealize.ShloMosaic Idealize.ShloMosaic.TcCoe Idealize.SL.Sem Cert.Gcn

variable (m : (ℓ : Loc nD τ sig) → Buf (Elt Ideal) ℓ) (ρ : Dev nD → PrngReg)

/-- The layer's output from the argument arrays: transform, aggregate over neighbourhoods, normalise and rectify. -/
def resultOf (x : FVec Ideal SX .f32) (e : (⟨S2x1600000, .i32⟩ : BufTy).Contents (Elt Ideal)) (W : FVec Ideal SW .f32)
    (b γ β μ v : FVec Ideal SP .f32) : FVec Ideal SY .f32 :=
  bnRelu (Nbr.aggOf (F := Ideal) (xwOf x W) e) b μ v γ β

set_option maxHeartbeats 2000000 in
/-- The last boundary's contents at the result buffer. -/
theorem last_contents (c : Dev nD) :
    W5 m ρ c (Proc.devRef .tc main_v50)
      = resultOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  have hlast : W5 m ρ c (Proc.devRef .tc main_v50) = (dat1 (V4 m ρ) c).arrAt 6 cfg1.N := W5_arr m ρ c 6
  have hxw : W1 m ρ c (Proc.devRef .tc main_v0) = xwOf (m ((c.tc : Thread nD τ).loc main_arg0)) (m ((c.tc : Thread nD τ).loc main_arg2)) :=
    (Mid.exit0_result m ρ c).trans (Lin.final (V0 m ρ) c)
  have hagg : V4 m ρ c main_v44
      = Nbr.aggOf (F := Ideal) (xwOf (m ((c.tc : Thread nD τ).loc main_arg0)) (m ((c.tc : Thread nD τ).loc main_arg2))) (m ((c.tc : Thread nD τ).loc main_arg1)) := by
    show W4 m ρ c (Proc.devRef .tc main_v44) = _
    rw [Mid.entry_agg, hxw, Mid.exit0_arg1]
  have hb : Nrm.unrow (V4 m ρ c main_v45) = m ((c.tc : Thread nD τ).loc main_arg3) := by
    show Nrm.unrow (W4 m ρ c (Proc.devRef .tc main_v45)) = _
    rw [Mid.entry_v45, Mid.unrow_reshape, Mid.exit0_arg3]
  have hμ : Nrm.unrow (V4 m ρ c main_v46) = m ((c.tc : Thread nD τ).loc main_arg6) := by
    show Nrm.unrow (W4 m ρ c (Proc.devRef .tc main_v46)) = _
    rw [Mid.entry_v46, Mid.unrow_reshape, Mid.exit0_arg6]
  have hv : Nrm.unrow (V4 m ρ c main_v47) = m ((c.tc : Thread nD τ).loc main_arg7) := by
    show Nrm.unrow (W4 m ρ c (Proc.devRef .tc main_v47)) = _
    rw [Mid.entry_v47, Mid.unrow_reshape, Mid.exit0_arg7]
  have hγ : Nrm.unrow (V4 m ρ c main_v48) = m ((c.tc : Thread nD τ).loc main_arg4) := by
    show Nrm.unrow (W4 m ρ c (Proc.devRef .tc main_v48)) = _
    rw [Mid.entry_v48, Mid.unrow_reshape, Mid.exit0_arg4]
  have hβ : Nrm.unrow (V4 m ρ c main_v49) = m ((c.tc : Thread nD τ).loc main_arg5) := by
    show Nrm.unrow (W4 m ρ c (Proc.devRef .tc main_v49)) = _
    rw [Mid.entry_v49, Mid.unrow_reshape, Mid.exit0_arg5]
  rw [hlast, Nrm.final (V4 m ρ) c, hagg, hb, hμ, hv, hγ, hβ]
  rfl

/-- The run, read: the result buffer ends at `resultOf` of the arguments, and the arguments end as launched. -/
theorem run : θ_run defs (onTc (τ := τ) (main (F := Ideal))) ⟨m, fun _ => 0, ρ⟩ (fun r => ∀ c : Dev nD,
      r.2.mem ((c.tc : Thread nD τ).loc main_v50)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (last_contents m ρ c), (h c).2⟩) (run_out (F := Ideal) m ρ)

end Cert.KernelIdeal.Out

end
-- ==== Proof.RefValue.lean ====
/-
  The reference, stage by stage, is the same three functions: its matrix product of the features with the transposed
  weights is `xwOf`; its neighbourhood sum is `aggOf` of that product and of the edge list, being the same host
  operations; and its last lines — add the bias, subtract the mean, multiply by the reciprocal square root of the
  variance plus ε, multiply by the scale, add the shift, take the maximum with 0, each per-feature vector first
  made a row and then stretched down the rows — are `bnRelu`, entry by entry: entry (r, j) uses entry j of each vector.
-/
import proofs.«106721_j21045339751032_1_alg».proof.Proof.RefReadP
import proofs.«106721_j21045339751032_1_alg».proof.Proof.Spec
import proofs.«106721_j21045339751032_1_alg».proof.Proof.Neighbourhood
import proofs.«106721_j21045339751032_1_alg».proof.Proof.Gen.KernelIdeal
import Idealize.ShloMosaic.Lib.ValueIdx
import Idealize.ShloMosaic.PureOps.Ideal.Laws

set_option maxRecDepth 16384

noncomputable section

namespace Cert.ReferenceIdeal.RefVal

open Cert.ReferenceIdeal Cert.ReferenceIdeal.Gen Cert.ReferenceIdeal.ReadP
open Idealize.ShloMosaic Idealize.ShloMosaic.ValueIdx Cert.Gcn

/-- The reference's product of the features with the transposed weights is `xwOf`. -/
theorem xw_eq (x0 : (⟨S100000x256, .f32⟩ : BufTy).Contents (Elt Ideal)) (x2 : (⟨S64x256, .f32⟩ : BufTy).Contents (Elt Ideal)) :
    val_main_v32 (F := Ideal) x0 x2 = xwOf x0 x2 := by
  funext i
  rw [val_main_v32_apply]
  unfold xwOf
  refine Finset.sum_congr rfl fun k _ => ?_
  rw [val_main_v31_apply]
  have e0 : lidx_main_v32 i k = ix2 (i 0) k := funext fun a => Fin.ext (by
    match a with
    | ⟨0, _⟩ => rfl
    | ⟨1, _⟩ => rfl)
  have e1 : idx_main_v31 (ridx_main_v32 i k) = ix2 (i 1) k := funext fun a => Fin.ext (by
    match a with
    | ⟨0, _⟩ => rfl
    | ⟨1, _⟩ => rfl)
  rw [e0, e1]
  rfl

set_option maxHeartbeats 2000000 in
/-- The reference's neighbourhood sum is `aggOf` of its product and of the edge list: the same operations, spelt once
    per program. -/
theorem agg_eq (x0 : (⟨S100000x256, .f32⟩ : BufTy).Contents (Elt Ideal)) (x1 : (⟨S2x1600000, .i32⟩ : BufTy).Contents (Elt Ideal))
    (x2 : (⟨S64x256, .f32⟩ : BufTy).Contents (Elt Ideal)) :
    val_main_v45 (F := Ideal) x0 x1 x2 = Cert.KernelIdeal.Nbr.aggOf (F := Ideal) (val_main_v32 (F := Ideal) x0 x2) x1 := by
  unfold val_main_v45 val_main_v44 val_main_v43 val_main_cst_8 val_main_v42 val_main_v41 val_main_v40 val_main_v39 val_main_v38
    val_main_v37 val_main_v36 val_main_c_7 val_main_v35 val_main_v34 val_main_c_6 val_main_v33 val_main_v30 val_main_v29 val_main_v28
    val_main_v27 val_main_v26 val_main_v25 val_main_c_5 val_main_v24 val_main_v23 val_main_c_4 val_main_v22 val_main_v21 val_main_v20
    val_main_v19 val_main_v18 val_main_v17 val_main_c_3 val_main_v16 val_main_v15 val_main_c val_main_v14 val_main_call0_v1
    val_main_call0_v0 val_main_cst_2 val_main_v13 val_main_v12 val_main_v11 val_main_cst_1 val_main_v10 val_main_v9 val_main_v8
    val_main_cst_0 val_main_v7 val_main_cst val_main_v6 val_main_v5 val_main_v4 val_main_v3 val_main_v2 val_main_v1 val_main_v0
  unfold Cert.KernelIdeal.Nbr.aggOf Cert.KernelIdeal.Nbr.coeff Cert.KernelIdeal.Nbr.dinv Cert.KernelIdeal.Nbr.deg
    Cert.KernelIdeal.Nbr.asIndices Cert.KernelIdeal.Nbr.wrap Cert.KernelIdeal.Nbr.ones Cert.KernelIdeal.Nbr.src
    Cert.KernelIdeal.Nbr.dst Cert.KernelIdeal.Nbr.withLoops
  rfl

/-- A per-feature vector made a row and stretched down the rows reads, at entry (r, j), its entry j. -/
theorem col_idx (i : S100000x64.Idx) : idx_main_v46 (idx_main_v47 i) = ix1 (i 1) := funext fun a => Fin.ext (by
  match a with
  | ⟨0, _⟩ => rfl)

/-- The reference's result is `bnRelu` of its neighbourhood sum and the per-feature vectors. -/
theorem result_eq (x0 : (⟨S100000x256, .f32⟩ : BufTy).Contents (Elt Ideal)) (x1 : (⟨S2x1600000, .i32⟩ : BufTy).Contents (Elt Ideal))
    (x2 : (⟨S64x256, .f32⟩ : BufTy).Contents (Elt Ideal)) (x3 x4 x5 x6 x7 : (⟨S64, .f32⟩ : BufTy).Contents (Elt Ideal)) :
    val_main_v64 (F := Ideal) x0 x1 x2 x3 x4 x5 x6 x7
      = bnRelu (Cert.KernelIdeal.Nbr.aggOf (F := Ideal) (xwOf x0 x2) x1) x3 x6 x7 x4 x5 := by
  funext i
  rw [val_main_v64_apply, val_main_v63_apply, val_main_v60_apply, val_main_v57_apply, val_main_v51_apply, val_main_v48_apply,
    val_main_v47_apply, val_main_v46_apply, val_main_v50_apply, val_main_v49_apply,
    val_main_v56_apply, val_main_v55_apply, val_main_v54_apply, val_main_v53_apply, val_main_v52_apply, val_main_cst_9_apply,
    val_main_v59_apply, val_main_v58_apply, val_main_v62_apply, val_main_v61_apply,
    val_main_call1_v0_apply, val_main_call1_cst_apply, agg_eq, xw_eq]
  have e3 : idx_main_v46 (idx_main_v47 i) = ix1 (i 1) := col_idx i
  have e6 : idx_main_v49 (idx_main_v50 i) = ix1 (i 1) := col_idx i
  have e7 : idx_main_v55 (idx_main_v56 i) = ix1 (i 1) := col_idx i
  have e4 : idx_main_v58 (idx_main_v59 i) = ix1 (i 1) := col_idx i
  have e5 : idx_main_v61 (idx_main_v62 i) = ix1 (i 1) := col_idx i
  rw [e3, e6, e7, e4, e5]
  rfl

end Cert.ReferenceIdeal.RefVal

end
-- ==== Proof.lean ====
/-
  One graph-convolution layer with fixed-statistics batch normalisation and a rectifier, on 100,000 nodes with 256
  input and 64 output features and 1,600,000 edges: out = relu(BN(Â · (x · Wᵀ) + b)), Â the adjacency with self loops
  normalised symmetrically by the degrees.

  The kernel computes x · Wᵀ in a first region (ten row blocks, a matrix product per block into a zero accumulator), the
  neighbourhood sum Â · (x · Wᵀ) by host gathers and scatter-adds, and the bias, normalisation and rectifier in a second
  region (ten row blocks, entry by entry). The reference computes the product by one host matrix product, the
  neighbourhood sum by the same host operations, and the rest by host operations on whole arrays.

  On the extended reals both results are the one function bnRelu (aggOf (xwOf x W) e) b μ v γ β of the arguments:
  * the product, blockwise into a zero accumulator or whole, is the same sum over the 256 features (`xwOf`);
  * the neighbourhood sum is the same operations applied to equal products (`aggOf`, never opened);
  * the last stage applies the same operations in the same order with the same ε, whether the per-feature vectors
    are stretched over a block or over the whole array (`bnRelu`).
  No step moves a factor across a sum or cancels, so no finiteness of the inputs is used.

  The three frames are the generated ones (the reference's is its run with the result dropped); the idealization
  rewrote nothing, so `preserves` is trivial.
-/
import proofs.«106721_j21045339751032_1_alg».proof.Defs
import proofs.«106721_j21045339751032_1_alg».proof.Proof.Gen.Kernel
import proofs.«106721_j21045339751032_1_alg».proof.Proof.Gen.Kernel.Skeleton
import proofs.«106721_j21045339751032_1_alg».proof.Proof.Gen.Kernel.Launch
import proofs.«106721_j21045339751032_1_alg».proof.Proof.Gen.Kernel.Points
import proofs.«106721_j21045339751032_1_alg».proof.Proof.Gen.Kernel.Frame
import proofs.«106721_j21045339751032_1_alg».proof.Proof.Gen.KernelIdeal
import proofs.«106721_j21045339751032_1_alg».proof.Proof.Gen.KernelIdeal.Skeleton
import proofs.«106721_j21045339751032_1_alg».proof.Proof.Gen.KernelIdeal.Launch
import proofs.«106721_j21045339751032_1_alg».proof.Proof.Gen.KernelIdeal.Points
import proofs.«106721_j21045339751032_1_alg».proof.Proof.Gen.KernelIdeal.Frame
import proofs.«106721_j21045339751032_1_alg».proof.Proof.Gen.ReferenceIdeal
import proofs.«106721_j21045339751032_1_alg».proof.Proof.Gen.Pre_finite_inputs
import proofs.«106721_j21045339751032_1_alg».proof.Proof.RefRunP
import proofs.«106721_j21045339751032_1_alg».proof.Proof.RefReadP
import proofs.«106721_j21045339751032_1_alg».proof.Proof.KernelValue
import proofs.«106721_j21045339751032_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result, the layer's output
    as a function of the arguments, and with their arguments unchanged. -/
theorem algebraic : Cert.algebraic_KernelIdeal_ReferenceIdeal := by
  intro m ρ m' ρ' _ hagree
  refine ⟨fun c => Cert.KernelIdeal.Out.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Out.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v64_eq, Cert.ReferenceIdeal.RefVal.result_eq, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
